-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 37
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x2048, .bf16⟩
  | .hbm, ⟨12, _⟩ => ⟨S1024x2048, .bf16⟩
  | .hbm, ⟨13, _⟩ => ⟨S1024x2048, .bf16⟩
  | .hbm, ⟨14, _⟩ => ⟨S1024x2048, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x4096, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S1024x4096, .bf16⟩
  | .hbm, ⟨33, _⟩ => ⟨S4096, .f32⟩
  | .hbm, ⟨34, _⟩ => ⟨S1x4096, .f32⟩
  | .hbm, ⟨35, _⟩ => ⟨S8192x1024, .f32⟩
  | .hbm, ⟨36, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  slices_S1024x2048_S1024x1024_0_0 : S1024x2048.Slices ![0, 0] S1024x1024
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  slices_S1024x2048_S1024x1024_0_1024 : S1024x2048.Slices ![0, 1024] S1024x1024
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S4096x2048 : Shape := ⟨2, ![4096, 2048]⟩
abbrev S4096 : Shape := ⟨1, ![4096]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8192x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.KernelFrame.lean ====
/-
  The run of the program that launches the cell kernel: it terminates, nothing faults, and the argument arrays end
  unchanged; and what the two result arrays hold afterwards, block by block.

  The program first builds, on the host, the gathered weight matrices and the bias row (operations that write only
  their own results, never an argument), then launches the kernel over 32 blocks of 256 rows. At each block the
  kernel's body reads its six input buffers (the block's rows of x, h and c; the two gathered weight matrices and the
  bias row, which stay in place from the first block on), computes, and overwrites its two output buffers whole
  — after loading them once, a value it never uses. So after the body an input buffer holds what it held, and an
  output buffer holds the body's arithmetic (the payload) of the six input buffers: this is the proof data the
  launch theorem takes, and its conclusion names each result array as what the 32 write-backs leave.
-/
import proofs.«139048_j88639535055293_2_alg».proof.Proof.Gen.Kernel.Launch
import proofs.«139048_j88639535055293_2_alg».proof.Proof.Gen.Kernel.Skeleton
import proofs.«139048_j88639535055293_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- A core's buffers when the kernel is launched: the launch memory after the host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 10: the kernel finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether fetched there or kept from before,
    for any proof data over the launch's arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

/-- The argument arrays after the run: those the kernel stages as inputs are what the launch found, the others are
    untouched by the launch, and the launch found every one of them as it was at the start. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: every load and store is of a whole buffer -/

abbrev rX : Rect S256x1024 := Rect.unit (s := S256x1024) ![0, 0] S256x1024.size inb_S256x1024_S256x1024_0_0
abbrev rG : Rect S1024x4096 := Rect.unit (s := S1024x4096) ![0, 0] S1024x4096.size inb_S1024x4096_S1024x4096_0_0
abbrev rR : Rect S1x4096 := Rect.unit (s := S1x4096) ![0, 0] S1x4096.size inb_S1x4096_S1x4096_0_0

/-- The new hidden state's buffer after the body: its one whole store, of the payload of the six inputs. -/
def out0_6 (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x3 rG) (View.ld x4 rG) (View.ld x5 rR) (View.ld x2 rX)⟩]

/-- The new cell state's buffer after the body. -/
def out0_7 (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x3 rG) (View.ld x4 rG) (View.ld x5 rR) (View.ld x2 rX)⟩]

/-- One whole store covers its buffer. -/
theorem cover_whole (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 4000000 in
/-- The body on whole buffers, the inputs' at known contents and the outputs' at anything, runs to the end leaving
    the inputs' as they were and each output's at its payload of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__xlstm_kernel i arg1 harg1 arg2 harg2 arg3 harg3 arg4 harg4 arg5 harg5 arg6 harg6 arg7 harg7 arg8 harg8) K := by
  simp only [cc0__xlstm_kernel_eq_skeleton]; unfold cc0__xlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The proof data -/

/-- The arrays as the launch finds them; after the body at point `t` each input's buffer at its block and each
    output's at its payload of the input blocks; nothing else of the core is touched; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, and every final state has every array of the launch at what the
    write-backs leave of the proof data and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KernelIdealFrame.lean ====
/-
  The run of the program that launches the cell kernel: it terminates, nothing faults, and the argument arrays end
  unchanged; and what the two result arrays hold afterwards, block by block.

  The program first builds, on the host, the gathered weight matrices and the bias row (operations that write only
  their own results, never an argument), then launches the kernel over 32 blocks of 256 rows. At each block the
  kernel's body reads its six input buffers (the block's rows of x, h and c; the two gathered weight matrices and the
  bias row, which stay in place from the first block on), computes, and overwrites its two output buffers whole
  — after loading them once, a value it never uses. So after the body an input buffer holds what it held, and an
  output buffer holds the body's arithmetic (the payload) of the six input buffers: this is the proof data the
  launch theorem takes, and its conclusion names each result array as what the 32 write-backs leave.
-/
import proofs.«139048_j88639535055293_2_alg».proof.Proof.Gen.KernelIdeal.Launch
import proofs.«139048_j88639535055293_2_alg».proof.Proof.Gen.KernelIdeal.Skeleton
import proofs.«139048_j88639535055293_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- A core's buffers when the kernel is launched: the launch memory after the host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 6: the kernel finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 7: the kernel finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 8: the kernel finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 9: the kernel finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the launch writes argument 10: the kernel finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether fetched there or kept from before,
    for any proof data over the launch's arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

/-- The argument arrays after the run: those the kernel stages as inputs are what the launch found, the others are
    untouched by the launch, and the launch found every one of them as it was at the start. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: every load and store is of a whole buffer -/

abbrev rX : Rect S256x1024 := Rect.unit (s := S256x1024) ![0, 0] S256x1024.size inb_S256x1024_S256x1024_0_0
abbrev rG : Rect S1024x4096 := Rect.unit (s := S1024x4096) ![0, 0] S1024x4096.size inb_S1024x4096_S1024x4096_0_0
abbrev rR : Rect S1x4096 := Rect.unit (s := S1x4096) ![0, 0] S1x4096.size inb_S1x4096_S1x4096_0_0

/-- The new hidden state's buffer after the body: its one whole store, of the payload of the six inputs. -/
def out0_6 (x0 x1 x2 : Vec F S256x1024 .f32) (x3 x4 : Vec F S1024x4096 .bf16) (x5 : Vec F S1x4096 .f32) : Vec F S256x1024 .f32 :=
  View.canon [⟨rX, k0_pay3 (View.ld x0 rX) (View.ld x1 rX) (View.ld x3 rG) (View.ld x4 rG) (View.ld x5 rR) (View.ld x2 rX)⟩]

/-- The new cell state's buffer after the body. -/
def out0_7 (x0 x1 x2 : Vec F S256x1024 .f32) (x3 x4 : Vec F S1024x4096 .bf16) (x5 : Vec F S1x4096 .f32) : Vec F S256x1024 .f32 :=
  View.canon [⟨rX, k0_pay2 (View.ld x0 rX) (View.ld x1 rX) (View.ld x3 rG) (View.ld x4 rG) (View.ld x5 rR) (View.ld x2 rX)⟩]

/-- One whole store covers its buffer. -/
theorem cover_whole (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 4000000 in
/-- The body on whole buffers, the inputs' at known contents and the outputs' at anything, runs to the end leaving
    the inputs' as they were and each output's at its payload of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__xlstm_kernel i arg1 harg1 arg2 harg2 arg3 harg3 arg4 harg4 arg5 harg5 arg6 harg6 arg7 harg7 arg8 harg8) K := by
  simp only [cc0__xlstm_kernel_eq_skeleton]; unfold cc0__xlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  iexists _; isplitr
  swap; · iexact H7
  ipureintro
  exact View.read_writes_eq_canon _ _ _ (cover_whole _)

/-! ## The proof data -/

/-- The arrays as the launch finds them; after the body at point `t` each input's buffer at its block and each
    output's at its payload of the input blocks; nothing else of the core is touched; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is handed at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates, and every final state has every array of the launch at what the
    write-backs leave of the proof data and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KernelHost.lean ====
/-
  What the program computes on the host before the kernel is launched, as functions of the argument arrays: the four
  gates' weight matrices cast, cut into the half that meets x and the half that meets h, transposed and laid side by
  side into two [1024, 4096] matrices, and the four biases laid end to end as one row of 4096.
-/
import proofs.«139048_j88639535055293_2_alg».proof.Proof.Gen.KernelIdeal

noncomputable section

namespace Cert.KernelIdeal.Hand

open Idealize.ShloMosaic Cert.KernelIdeal Cert.KernelIdeal.Gen

variable {F : FTy → Type} [FloatOps F]

/-- The four gates' weights that meet x, cast, cut to their first 1024 columns, transposed and laid side by side:
    entry (k, 1024·g + j) is gate g's weight (j, k). -/
def gatherX (Wi Wf Wo Wc : FVec F S1024x2048 .f32) : FVec F S1024x4096 .bf16 :=
  concatenate S1024x4096 1
    [⟨S1024x1024, transpose S1024x1024 [1, 0] (extractStridedSlice S1024x1024 ![0, 0] (truncf .bf16 Wi bitsLt_bf16_f32) slices_S1024x2048_S1024x1024_0_0) transposes_S1024x1024_S1024x1024_1_0⟩,
     ⟨S1024x1024, transpose S1024x1024 [1, 0] (extractStridedSlice S1024x1024 ![0, 0] (truncf .bf16 Wf bitsLt_bf16_f32) slices_S1024x2048_S1024x1024_0_0) transposes_S1024x1024_S1024x1024_1_0⟩,
     ⟨S1024x1024, transpose S1024x1024 [1, 0] (extractStridedSlice S1024x1024 ![0, 0] (truncf .bf16 Wo bitsLt_bf16_f32) slices_S1024x2048_S1024x1024_0_0) transposes_S1024x1024_S1024x1024_1_0⟩,
     ⟨S1024x1024, transpose S1024x1024 [1, 0] (extractStridedSlice S1024x1024 ![0, 0] (truncf .bf16 Wc bitsLt_bf16_f32) slices_S1024x2048_S1024x1024_0_0) transposes_S1024x1024_S1024x1024_1_0⟩]
    concatenates_S1024x1024_S1024x1024_S1024x1024_S1024x1024_S1024x4096_d1

/-- The same for the weights that meet h (the last 1024 columns): entry (k, 1024·g + j) is gate g's weight (j, 1024 + k). -/
def gatherH (Wi Wf Wo Wc : FVec F S1024x2048 .f32) : FVec F S1024x4096 .bf16 :=
  concatenate S1024x4096 1
    [⟨S1024x1024, transpose S1024x1024 [1, 0] (extractStridedSlice S1024x1024 ![0, 1024] (truncf .bf16 Wi bitsLt_bf16_f32) slices_S1024x2048_S1024x1024_0_1024) transposes_S1024x1024_S1024x1024_1_0⟩,
     ⟨S1024x1024, transpose S1024x1024 [1, 0] (extractStridedSlice S1024x1024 ![0, 1024] (truncf .bf16 Wf bitsLt_bf16_f32) slices_S1024x2048_S1024x1024_0_1024) transposes_S1024x1024_S1024x1024_1_0⟩,
     ⟨S1024x1024, transpose S1024x1024 [1, 0] (extractStridedSlice S1024x1024 ![0, 1024] (truncf .bf16 Wo bitsLt_bf16_f32) slices_S1024x2048_S1024x1024_0_1024) transposes_S1024x1024_S1024x1024_1_0⟩,
     ⟨S1024x1024, transpose S1024x1024 [1, 0] (extractStridedSlice S1024x1024 ![0, 1024] (truncf .bf16 Wc bitsLt_bf16_f32) slices_S1024x2048_S1024x1024_0_1024) transposes_S1024x1024_S1024x1024_1_0⟩]
    concatenates_S1024x1024_S1024x1024_S1024x1024_S1024x1024_S1024x4096_d1

/-- The four biases end to end, as one row: entry (0, 1024·g + j) is gate g's bias j. -/
def gatherB (bi bf bo bc : FVec F S1024 .f32) : FVec F S1x4096 .f32 :=
  shapeCast S1x4096 (concatenate S4096 0 [⟨S1024, bi⟩, ⟨S1024, bf⟩, ⟨S1024, bo⟩, ⟨S1024, bc⟩] concatenates_S1024_S1024_S1024_S1024_S4096_d0) shapeCasts_S4096_S1x4096

end Cert.KernelIdeal.Hand

end
-- ==== Proof.Cell.lean ====
/-
  One step of an LSTM cell, entry by entry, on the extended reals.

  From the input x[8192,1024], the previous hidden state h[8192,1024], the previous cell state c[8192,1024] and, for
  each of the four gates (input i, forget f, output o, candidate g), a weight matrix W[1024,2048] and a bias b[1024]:
  the gate's pre-activation at row r, unit j is

      pre(r, j) = Σ_{k<1024} x(r,k)·W(j,k) + Σ_{k<1024} h(r,k)·W(j,1024+k) + b(j),

  the new cell state is σ(pre_f)·c + σ(pre_i)·tanh(pre_g) and the new hidden state σ(pre_o)·tanh(new cell state), with
  σ the logistic function. The 2048 columns of a weight row are the 1024 that meet x followed by the 1024 that meet h,
  so a sum over all 2048 columns of [x | h] against a weight row splits into the two sums above (`sum_halves`): this is
  the one law between a program that contracts the joined row [x | h] at once and one that contracts x and h apart, and
  it holds in any commutative monoid, so no finiteness of the entries is involved.

  The same cell read off a block of 256 rows against weights already gathered gate by gate into [1024,4096] matrices
  (column 1024·g + j for gate g, unit j) is `bgate`, `bcAt`, `bhAt` below.
-/
import Idealize.ShloMosaic.PureOps.Ideal
import Idealize.ShloMosaic.Lib.ValueIdx
import Mathlib.Algebra.BigOperators.Fin

noncomputable section

open scoped BigOperators

namespace Cert.Cell

open Idealize.ShloMosaic Idealize.ShloMosaic.ValueIdx

/-- Batch by units; a gate's weights (units by joined columns); a gate's bias. -/
abbrev SB : Shape := ⟨2, ![8192, 1024]⟩
abbrev SW : Shape := ⟨2, ![1024, 2048]⟩
abbrev Sb : Shape := ⟨1, ![1024]⟩
/-- A block of 256 rows; the four gates' weights side by side; the four biases side by side as one row. -/
abbrev SX : Shape := ⟨2, ![256, 1024]⟩
abbrev SG : Shape := ⟨2, ![1024, 4096]⟩
abbrev Sr : Shape := ⟨2, ![1, 4096]⟩

/-- Column `k` of a weight row's first half (the columns that meet x) and of its second half (those that meet h). -/
abbrev lo (k : Fin 1024) : Fin 2048 := ⟨k.val, by omega⟩
abbrev hi (k : Fin 1024) : Fin 2048 := ⟨1024 + k.val, by omega⟩
/-- Gate `g`'s unit `q` among the 4096 gathered columns. -/
abbrev col (g : Fin 4) (q : Fin 1024) : Fin 4096 := ⟨1024 * g.val + q.val, by omega⟩
/-- Row `p` of block `t` among the 8192 rows. -/
abbrev row (t : Fin 32) (p : Fin 256) : Fin 8192 := ⟨256 * t.val + p.val, by omega⟩

/-- One of four things, by the gate's number (0 input, 1 forget, 2 output, 3 candidate). -/
def pick {α : Sort _} (g : Fin 4) (a0 a1 a2 a3 : α) : α :=
  match g with
  | ⟨0, _⟩ => a0
  | ⟨1, _⟩ => a1
  | ⟨2, _⟩ => a2
  | ⟨3, _⟩ => a3

/-- A sum over the 2048 joined columns is the sum over the first 1024 plus the sum over the last 1024. -/
theorem sum_halves {M : Type*} [AddCommMonoid M] (f : Fin 2048 → M) :
    ∑ k, f k = ∑ k : Fin 1024, f (lo k) + ∑ k : Fin 1024, f (hi k) := by
  have h := Fin.sum_univ_add (M := M) (a := 1024) (b := 1024) f
  refine h.trans ?_
  congr 1

/-- A gate's pre-activation at row `r`, unit `j`. -/
def gate (x h : FVec Ideal SB .f32) (W : FVec Ideal SW .f32) (b : FVec Ideal Sb .f32) (r : Fin 8192) (j : Fin 1024) : EReal :=
  (∑ k : Fin 1024, x (ix2 r k) * W (ix2 j (lo k)) + ∑ k : Fin 1024, h (ix2 r k) * W (ix2 j (hi k))) + b (ix1 j)

/-- The new cell state at row `r`, unit `j`. -/
def cAt (x h c : FVec Ideal SB .f32) (Wi : FVec Ideal SW .f32) (bi : FVec Ideal Sb .f32) (Wf : FVec Ideal SW .f32) (bf : FVec Ideal Sb .f32)
    (Wo : FVec Ideal SW .f32) (bo : FVec Ideal Sb .f32) (Wc : FVec Ideal SW .f32) (bc : FVec Ideal Sb .f32) (r : Fin 8192) (j : Fin 1024) : EReal :=
  Ideal.logistic (gate x h Wf bf r j) * c (ix2 r j) + Ideal.logistic (gate x h Wi bi r j) * Ideal.tanh (gate x h Wc bc r j)

/-- The new hidden state at row `r`, unit `j`. -/
def hAt (x h c : FVec Ideal SB .f32) (Wi : FVec Ideal SW .f32) (bi : FVec Ideal Sb .f32) (Wf : FVec Ideal SW .f32) (bf : FVec Ideal Sb .f32)
    (Wo : FVec Ideal SW .f32) (bo : FVec Ideal Sb .f32) (Wc : FVec Ideal SW .f32) (bc : FVec Ideal Sb .f32) (r : Fin 8192) (j : Fin 1024) : EReal :=
  Ideal.logistic (gate x h Wo bo r j) * Ideal.tanh (cAt x h c Wi bi Wf bf Wo bo Wc bc r j)

/-- The new cell state as an array. -/
def cNext (x h c : FVec Ideal SB .f32) (Wi : FVec Ideal SW .f32) (bi : FVec Ideal Sb .f32) (Wf : FVec Ideal SW .f32) (bf : FVec Ideal Sb .f32)
    (Wo : FVec Ideal SW .f32) (bo : FVec Ideal Sb .f32) (Wc : FVec Ideal SW .f32) (bc : FVec Ideal Sb .f32) : FVec Ideal SB .f32 :=
  fun i => cAt x h c Wi bi Wf bf Wo bo Wc bc (i 0) (i 1)

/-- The new hidden state as an array. -/
def hNext (x h c : FVec Ideal SB .f32) (Wi : FVec Ideal SW .f32) (bi : FVec Ideal Sb .f32) (Wf : FVec Ideal SW .f32) (bf : FVec Ideal Sb .f32)
    (Wo : FVec Ideal SW .f32) (bo : FVec Ideal Sb .f32) (Wc : FVec Ideal SW .f32) (bc : FVec Ideal Sb .f32) : FVec Ideal SB .f32 :=
  fun i => hAt x h c Wi bi Wf bf Wo bo Wc bc (i 0) (i 1)

theorem cNext_ix2 (x h c : FVec Ideal SB .f32) (Wi : FVec Ideal SW .f32) (bi : FVec Ideal Sb .f32) (Wf : FVec Ideal SW .f32) (bf : FVec Ideal Sb .f32)
    (Wo : FVec Ideal SW .f32) (bo : FVec Ideal Sb .f32) (Wc : FVec Ideal SW .f32) (bc : FVec Ideal Sb .f32) (r : Fin 8192) (j : Fin 1024) :
    cNext x h c Wi bi Wf bf Wo bo Wc bc (ix2 r j) = cAt x h c Wi bi Wf bf Wo bo Wc bc r j := rfl

theorem hNext_ix2 (x h c : FVec Ideal SB .f32) (Wi : FVec Ideal SW .f32) (bi : FVec Ideal Sb .f32) (Wf : FVec Ideal SW .f32) (bf : FVec Ideal Sb .f32)
    (Wo : FVec Ideal SW .f32) (bo : FVec Ideal Sb .f32) (Wc : FVec Ideal SW .f32) (bc : FVec Ideal Sb .f32) (r : Fin 8192) (j : Fin 1024) :
    hNext x h c Wi bi Wf bf Wo bo Wc bc (ix2 r j) = hAt x h c Wi bi Wf bf Wo bo Wc bc r j := rfl

/-! ## The same cell on a block of rows, the weights gathered gate by gate -/

/-- Gate `g`'s pre-activation at row `p` of a block, unit `q`: the block's rows of x and of h against column
    `1024·g + q` of the gathered weights, plus that column of the gathered biases. -/
def bgate (x0 x1 : FVec Ideal SX .f32) (w3 w4 : FVec Ideal SG .bf16) (b5 : FVec Ideal Sr .f32) (g : Fin 4) (p : Fin 256) (q : Fin 1024) : EReal :=
  (∑ k : Fin 1024, x0 (ix2 p k) * w3 (ix2 k (col g q)) + ∑ k : Fin 1024, x1 (ix2 p k) * w4 (ix2 k (col g q))) + b5 (ix2 0 (col g q))

/-- The new cell state at row `p` of the block, unit `q` (`x2` the block's rows of the previous cell state). -/
def bcAt (x0 x1 x2 : FVec Ideal SX .f32) (w3 w4 : FVec Ideal SG .bf16) (b5 : FVec Ideal Sr .f32) (p : Fin 256) (q : Fin 1024) : EReal :=
  Ideal.logistic (bgate x0 x1 w3 w4 b5 1 p q) * x2 (ix2 p q) + Ideal.logistic (bgate x0 x1 w3 w4 b5 0 p q) * Ideal.tanh (bgate x0 x1 w3 w4 b5 3 p q)

/-- The new hidden state at row `p` of the block, unit `q`. -/
def bhAt (x0 x1 x2 : FVec Ideal SX .f32) (w3 w4 : FVec Ideal SG .bf16) (b5 : FVec Ideal Sr .f32) (p : Fin 256) (q : Fin 1024) : EReal :=
  Ideal.logistic (bgate x0 x1 w3 w4 b5 2 p q) * Ideal.tanh (bcAt x0 x1 x2 w3 w4 b5 p q)

end Cert.Cell

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.KernelCell.lean ====
/-
  The kernel body's arithmetic, entry by entry, on the extended reals.

  The body forms, for a block of 256 rows, the 256 × 4096 array of the four gates' pre-activations: the product of the
  block's rows of x with the gathered x-weights plus the product of the block's rows of h with the gathered h-weights
  (each product accumulated into the zero array, so each entry is the plain sum over the 1024 contracted columns), plus
  the one bias row repeated down the 256 rows. The narrowing of x and h before the products and the two casts of a shape
  to itself change no entry. Entry (p, c) of that array is therefore

      Σ_{k<1024} x(p,k)·Wx(k,c) + Σ_{k<1024} h(p,k)·Wh(k,c) + b(0,c)                       (`pay1_apply`),

  and at column c = 1024·g + q it is gate g's pre-activation at row p, unit q (`pay1_col`). The four gates are then cut
  out as the slices of 1024 columns starting at columns 0, 1024, 2048, 3072: such a slice read at (p, q) is the array at
  (p, 1024·g + q) (`slice_col`, `gate_slice`). The new cell state σ(pre_f)·c + σ(pre_i)·tanh(pre_g) and the new hidden
  state σ(pre_o)·tanh(new cell state) are formed entry by entry from these, so they read at (p, q) as the block cell's
  `bcAt` and `bhAt` (`pay2_apply`, `pay3_apply`).
-/
import proofs.«139048_j88639535055293_2_alg».proof.Proof.Gen.KernelIdeal.Skeleton
import proofs.«139048_j88639535055293_2_alg».proof.Proof.Cell
import proofs.«139048_j88639535055293_2_alg».proof.Proof.LibPlainProduct
import Idealize.ShloMosaic.Lib.ValueLayout
import Idealize.ShloMosaic.Lib.Pipeline.Value

noncomputable section

open scoped BigOperators

namespace Cert.KernelIdeal.CellValue

open Cert.KernelIdeal Cert.KernelIdeal.Gen Idealize.ShloMosaic Idealize.ShloMosaic.ValueIdx

/-- The array of gate pre-activations at row `p`, column `c`: the two plain products' sums over the 1024 contracted
    columns, plus the bias row's entry at `c`. -/
theorem pay1_apply (x0 x1 : FVec Ideal S256x1024 .f32) (w3 w4 : FVec Ideal S1024x4096 .bf16) (b5 : FVec Ideal S1x4096 .f32)
    (p : Fin 256) (c : Fin 4096) :
    Gen.k0_pay1 (F := Ideal) x0 x1 w3 w4 b5 (ix2 p c)
      = (∑ k : Fin 1024, x0 (ix2 p k) * w3 (ix2 k c) + ∑ k : Fin 1024, x1 (ix2 p k) * w4 (ix2 k c)) + b5 (ix2 0 c) := by
  have hw3 : shapeCast S1024x4096 w3 shapeCasts_S1024x4096_S1024x4096 = w3 := shapeCast_self _ _
  have hw4 : shapeCast S1024x4096 w4 shapeCasts_S1024x4096_S1024x4096 = w4 := shapeCast_self _ _
  have hb5 : shapeCast S1x4096 b5 shapeCasts_S1x4096_S1x4096 = b5 := shapeCast_self _ _
  unfold Gen.k0_pay1
  rw [hw3, hw4, hb5]
  refine (addf_apply _ _ _).trans ?_
  refine congrArg₂ (· + ·) ((addf_apply _ _ _).trans (congrArg₂ (· + ·) ?_ ?_)) ?_
  · exact Cert.LibPlainProduct.matmul_zero_plain_apply dot_S256x1024_S1024x4096_S256x4096_1_0_0_1_n_n_wf none
      (truncf FTy.bf16 x0 bitsLt_bf16_f32) w3 p c
  · exact Cert.LibPlainProduct.matmul_zero_plain_apply dot_S256x1024_S1024x4096_S256x4096_1_0_0_1_n_n_wf none
      (truncf FTy.bf16 x1 bitsLt_bf16_f32) w4 p c
  · exact broadcastTo_1b_ab_apply b5 broadcasts_S1x4096_S256x4096 p c

/-- The gate pre-activations at column `1024·g + q`: gate `g`'s pre-activation at unit `q`. -/
theorem pay1_col (x0 x1 : FVec Ideal S256x1024 .f32) (w3 w4 : FVec Ideal S1024x4096 .bf16) (b5 : FVec Ideal S1x4096 .f32)
    (g : Fin 4) (p : Fin 256) (q : Fin 1024) :
    Gen.k0_pay1 (F := Ideal) x0 x1 w3 w4 b5 (ix2 p (Cert.Cell.col g q)) = Cert.Cell.bgate x0 x1 w3 w4 b5 g p q :=
  pay1_apply x0 x1 w3 w4 b5 p (Cert.Cell.col g q)

/-- The slice of 1024 columns starting at column `1024·g`, read at (p, q), is the operand at (p, 1024·g + q). -/
theorem slice_col (X : FVec Ideal S256x4096 .f32) (g : Fin 4) (off : Nat) (hoff : off = 1024 * g.val)
    (h : S256x4096.Slices ![0, off] S256x1024) (p : Fin 256) (q : Fin 1024) :
    extractStridedSlice S256x1024 ![0, off] X h (ix2 p q) = X (ix2 p (Cert.Cell.col g q)) := by
  subst hoff
  refine extractStridedSlice_apply _ X h (ix2 p q) (ix2 p (Cert.Cell.col g q)) fun a => ?_
  match a with
  | ⟨0, _⟩ => exact (Nat.zero_add _).symm
  | ⟨1, _⟩ => rfl

/-- The sliced gate, read at (p, q). -/
theorem gate_slice (x0 x1 : FVec Ideal S256x1024 .f32) (w3 w4 : FVec Ideal S1024x4096 .bf16) (b5 : FVec Ideal S1x4096 .f32)
    (g : Fin 4) (off : Nat) (hoff : off = 1024 * g.val) (h : S256x4096.Slices ![0, off] S256x1024) (p : Fin 256) (q : Fin 1024) :
    extractStridedSlice S256x1024 ![0, off] (Gen.k0_pay1 (F := Ideal) x0 x1 w3 w4 b5) h (ix2 p q)
      = Cert.Cell.bgate x0 x1 w3 w4 b5 g p q :=
  (slice_col _ g off hoff h p q).trans (pay1_col x0 x1 w3 w4 b5 g p q)

/-- The new cell state's block, read at (p, q): forget gate times previous cell state plus input gate times candidate. -/
theorem pay2_apply (x0 x1 x2 : FVec Ideal S256x1024 .f32) (w3 w4 : FVec Ideal S1024x4096 .bf16) (b5 : FVec Ideal S1x4096 .f32)
    (p : Fin 256) (q : Fin 1024) :
    Gen.k0_pay2 (F := Ideal) x0 x1 w3 w4 b5 x2 (ix2 p q) = Cert.Cell.bcAt x0 x1 x2 w3 w4 b5 p q := by
  unfold Gen.k0_pay2 Cert.Cell.bcAt
  refine (addf_apply _ _ _).trans (congrArg₂ (· + ·) ?_ ?_)
  · refine (mulf_apply _ _ _).trans (congrArg₂ (· * ·) ?_ rfl)
    exact congrArg Ideal.logistic (gate_slice x0 x1 w3 w4 b5 1 1024 rfl _ p q)
  · refine (mulf_apply _ _ _).trans (congrArg₂ (· * ·) ?_ ?_)
    · exact congrArg Ideal.logistic (gate_slice x0 x1 w3 w4 b5 0 0 rfl _ p q)
    · exact congrArg Ideal.tanh (gate_slice x0 x1 w3 w4 b5 3 3072 rfl _ p q)

/-- The new hidden state's block, read at (p, q): output gate times tanh of the new cell state. -/
theorem pay3_apply (x0 x1 x2 : FVec Ideal S256x1024 .f32) (w3 w4 : FVec Ideal S1024x4096 .bf16) (b5 : FVec Ideal S1x4096 .f32)
    (p : Fin 256) (q : Fin 1024) :
    Gen.k0_pay3 (F := Ideal) x0 x1 w3 w4 b5 x2 (ix2 p q) = Cert.Cell.bhAt x0 x1 x2 w3 w4 b5 p q := by
  unfold Gen.k0_pay3 Cert.Cell.bhAt
  refine (mulf_apply _ _ _).trans (congrArg₂ (· * ·) ?_ ?_)
  · exact congrArg Ideal.logistic (gate_slice x0 x1 w3 w4 b5 2 2048 rfl _ p q)
  · exact congrArg Ideal.tanh (pay2_apply x0 x1 x2 w3 w4 b5 p q)

end Cert.KernelIdeal.CellValue

end
-- ==== Proof.LibUniformConcat.lean ====
/-
  A concatenation of pieces of one shape, read at an index, and a way to state a fact about every piece of a long
  literal list at once.

  Laying `N` pieces of the same extent `K` end to end along an axis puts position `r` of the result in piece `r / K`, at
  position `r % K` of that piece: the pieces before it take up `K · (r / K)` positions. For rows of a two-axis array
  (pieces `[K, w]`, result `[T, w]`, joined along axis 0) this is `concat_blocks_pred` below.

  `Numbered P n xs` says `P n` of the first piece of `xs`, `P (n+1)` of the second, and so on: a proof supplies it for a
  literal list as one conjunction, piece by piece, and `Numbered.get` reads it back at a position given as a number.
-/
import Idealize.ShloMosaic.PureOps.Ideal
import Idealize.ShloMosaic.Lib.ValueIdx
import Idealize.ShloMosaic.Lib.Pipeline.Value

noncomputable section

namespace Idealize.ShloMosaic.UniformConcat

open Idealize.ShloMosaic Idealize.ShloMosaic.ValueIdx

variable {α : Type}

/-- `P n` of the first piece, `P (n + 1)` of the second, … -/
def Numbered {β : Type _} (P : ℕ → β → Prop) : ℕ → List β → Prop
  | _, [] => True
  | n, y :: ys => P n y ∧ Numbered P (n + 1) ys

theorem Numbered.get {β : Type _} (P : ℕ → β → Prop) : ∀ (n : ℕ) (xs : List β), Numbered P n xs →
    ∀ (k : ℕ) (hk : k < xs.length), P (n + k) xs[k]
  | _, [], _, k, hk => absurd hk (Nat.not_lt_zero _)
  | n, y :: ys, h, 0, _ => h.1
  | n, y :: ys, h, k + 1, hk => by
    have := Numbered.get P (n + 1) ys h.2 k (by simpa using hk)
    simpa [Nat.add_assoc, Nat.add_comm 1 k] using this

/-- The pieces before piece `n`, all of extent `K` along the axis, take up `K · n` positions. -/
theorem take_extent_sum {t s₁ : Shape} (a : Fin t.rank) (hr : s₁.rank = t.rank) (K : ℕ)
    (hK : s₁.size (a.cast hr.symm) = K) :
    ∀ (xs : List ((s : Shape) × (s.Idx → α))) (_ : ∀ y ∈ xs, y.1 = s₁) (n : ℕ) (_ : n ≤ xs.length),
      (((xs.take n).map (·.1)).map fun s => if h : s.rank = t.rank then s.size (a.cast h.symm) else 0).sum = K * n
  | _, _, 0, _ => by simp
  | [], _, n + 1, hn => absurd hn (by simp)
  | y :: ys, hall, n + 1, hn => by
    have hy : y.1 = s₁ := hall y (by simp)
    have ih := take_extent_sum a hr K hK ys (fun z hz => hall z (by simp [hz])) n (by simpa using hn)
    simp only [List.take_succ_cons, List.map_cons, List.sum_cons]
    rw [ih, hy, dif_pos hr, hK]
    ring

/-- A concatenation of pieces that all have the shape `s₁`, of extent `K` along the axis, read at an index: piece `n`
    at the index with the same coordinates off the axis and, on it, the position less `K · n`. -/
theorem concatenate_uniform_apply {t s₁ : Shape} (a : Fin t.rank) (xs : List ((s : Shape) × (s.Idx → α)))
    (h : Shape.Concatenates (xs.map (·.1)) t a) (hr : s₁.rank = t.rank) (K : ℕ) (hK : s₁.size (a.cast hr.symm) = K)
    (hall : ∀ y ∈ xs, y.1 = s₁) (j : t.Idx) (n : ℕ) (hn : n < xs.length) (x₁ : s₁.Idx → α) (hx : xs[n] = ⟨s₁, x₁⟩)
    (i : s₁.Idx) (hi : ∀ b : Fin s₁.rank, b.cast hr ≠ a → (i b).val = (j (b.cast hr)).val)
    (ha : K * n + (i (a.cast hr.symm)).val = (j a).val) :
    concatenate t a xs h j = x₁ i :=
  concatenate_apply_piece a xs h j n hn s₁ x₁ hx hr (K * n)
    (take_extent_sum a hr K hK xs hall n (Nat.le_of_lt hn)) i hi ha

/-- Rows: pieces `[K, w]` joined along axis 0 into `[T, w]`, every piece `n` satisfying `Q n`. The result's row `r`,
    column `c`, is row `r % K`, column `c`, of a piece that satisfies `Q (r / K)`. -/
theorem concat_blocks_pred {K w T : ℕ} (xs : List ((s : Shape) × (s.Idx → α)))
    (h : Shape.Concatenates (xs.map (·.1)) ⟨2, ![T, w]⟩ 0)
    (Q : ℕ → ((⟨2, ![K, w]⟩ : Shape).Idx → α) → Prop)
    (hxs : Numbered (fun n (y : (s : Shape) × (s.Idx → α)) => ∃ x : (⟨2, ![K, w]⟩ : Shape).Idx → α,
      y = ⟨⟨2, ![K, w]⟩, x⟩ ∧ Q n x) 0 xs)
    (hK : 0 < K) (r : Fin T) (c : Fin w) (hlt : r.val / K < xs.length) :
    ∃ x : (⟨2, ![K, w]⟩ : Shape).Idx → α, Q (r.val / K) x ∧
      concatenate ⟨2, ![T, w]⟩ 0 xs h (ix2 r c) = x (ix2 ⟨r.val % K, Nat.mod_lt _ hK⟩ c) := by
  obtain ⟨x, hx, hQ⟩ := Numbered.get _ 0 xs hxs (r.val / K) hlt
  rw [Nat.zero_add] at hQ
  refine ⟨x, hQ, ?_⟩
  have hall : ∀ y ∈ xs, y.1 = (⟨2, ![K, w]⟩ : Shape) := by
    intro y hy
    obtain ⟨k, hk, rfl⟩ := List.getElem_of_mem hy
    obtain ⟨x', hx', -⟩ := Numbered.get _ 0 xs hxs k hk
    rw [hx']
  refine concatenate_uniform_apply (t := ⟨2, ![T, w]⟩) (s₁ := ⟨2, ![K, w]⟩) (0 : Fin 2) xs h rfl K rfl hall (ix2 r c) (r.val / K) hlt x hx
    (ix2 ⟨r.val % K, Nat.mod_lt _ hK⟩ c) ?_ ?_
  · intro b hb
    match b with
    | ⟨0, _⟩ => exact absurd rfl hb
    | ⟨1, _⟩ => rfl
  · show K * (r.val / K) + r.val % K = r.val
    exact Nat.div_add_mod r.val K

end Idealize.ShloMosaic.UniformConcat

end
-- ==== Proof.KernelGather.lean ====
/-
  What the host operations build before the kernel is launched, read entry by entry.

  The gathered weights lay four [1024, 1024] pieces side by side along the columns; piece g is the transpose of a
  [1024, 1024] cut of gate g's cast weight matrix. Entry (k, 1024·g + q) of four pieces of width 1024 laid side by side is
  piece g at (k, q); a transpose at (k, q) is its operand at (q, k); a cut with column offset c at (q, k) is the matrix at
  (q, c + k); and the cast changes no entry on the extended reals. So entry (k, 1024·g + q) of the weights gathered for x
  (offset 0) is gate g's weight (q, k), and of those gathered for h (offset 1024) gate g's weight (q, 1024 + k).

  The gathered biases are the four bias vectors laid end to end, entry 1024·g + q being gate g's bias q, recast as one
  row: entry (0, c) of the row is entry c of the vector.
-/
import proofs.«139048_j88639535055293_2_alg».proof.Proof.KernelHost
import proofs.«139048_j88639535055293_2_alg».proof.Proof.Cell
import proofs.«139048_j88639535055293_2_alg».proof.Proof.LibUniformConcat
import Idealize.ShloMosaic.Lib.ValueLayout

noncomputable section

namespace Cert.KernelIdeal.GatherValue

open Cert.KernelIdeal Cert.KernelIdeal.Gen Cert.KernelIdeal.Hand Idealize.ShloMosaic Idealize.ShloMosaic.ValueIdx

/-- Four [1024, 1024] pieces laid side by side along the columns, read at row k, column 1024·g + q: piece g at (k, q). -/
theorem concat4_cols_apply {α : Type} (p0 p1 p2 p3 : S1024x1024.Idx → α)
    (h : Shape.Concatenates [S1024x1024, S1024x1024, S1024x1024, S1024x1024] S1024x4096 1)
    (k : Fin 1024) (g : Fin 4) (q : Fin 1024) :
    concatenate S1024x4096 1 [⟨S1024x1024, p0⟩, ⟨S1024x1024, p1⟩, ⟨S1024x1024, p2⟩, ⟨S1024x1024, p3⟩] h
        (ix2 k (Cert.Cell.col g q)) = (Cert.Cell.pick g p0 p1 p2 p3) (ix2 k q) := by
  have hall : ∀ y ∈ ([⟨S1024x1024, p0⟩, ⟨S1024x1024, p1⟩, ⟨S1024x1024, p2⟩, ⟨S1024x1024, p3⟩] : List ((s : Shape) × (s.Idx → α))),
      y.1 = S1024x1024 := by
    intro y hy
    simp only [List.mem_cons, List.mem_nil_iff, or_false] at hy
    rcases hy with rfl | rfl | rfl | rfl <;> rfl
  have hi : ∀ b : Fin S1024x1024.rank, b.cast (rfl : S1024x1024.rank = S1024x4096.rank) ≠ (1 : Fin S1024x4096.rank) →
      ((ix2 k q : S1024x1024.Idx) b).val = ((ix2 k (Cert.Cell.col g q) : S1024x4096.Idx) (b.cast rfl)).val := by
    intro b hb
    match b with
    | ⟨0, _⟩ => rfl
    | ⟨1, _⟩ => exact absurd rfl hb
  match g with
  | ⟨0, _⟩ =>
    exact UniformConcat.concatenate_uniform_apply (t := S1024x4096) (s₁ := S1024x1024) 1
      [⟨S1024x1024, p0⟩, ⟨S1024x1024, p1⟩, ⟨S1024x1024, p2⟩, ⟨S1024x1024, p3⟩] h rfl 1024 rfl hall _ 0 (by show 0 < 4; omega) p0 rfl
      (ix2 k q) hi rfl
  | ⟨1, _⟩ =>
    exact UniformConcat.concatenate_uniform_apply (t := S1024x4096) (s₁ := S1024x1024) 1
      [⟨S1024x1024, p0⟩, ⟨S1024x1024, p1⟩, ⟨S1024x1024, p2⟩, ⟨S1024x1024, p3⟩] h rfl 1024 rfl hall _ 1 (by show 1 < 4; omega) p1 rfl
      (ix2 k q) hi rfl
  | ⟨2, _⟩ =>
    exact UniformConcat.concatenate_uniform_apply (t := S1024x4096) (s₁ := S1024x1024) 1
      [⟨S1024x1024, p0⟩, ⟨S1024x1024, p1⟩, ⟨S1024x1024, p2⟩, ⟨S1024x1024, p3⟩] h rfl 1024 rfl hall _ 2 (by show 2 < 4; omega) p2 rfl
      (ix2 k q) hi rfl
  | ⟨3, _⟩ =>
    exact UniformConcat.concatenate_uniform_apply (t := S1024x4096) (s₁ := S1024x1024) 1
      [⟨S1024x1024, p0⟩, ⟨S1024x1024, p1⟩, ⟨S1024x1024, p2⟩, ⟨S1024x1024, p3⟩] h rfl 1024 rfl hall _ 3 (by show 3 < 4; omega) p3 rfl
      (ix2 k q) hi rfl

/-- The transpose of the [1024, 1024] cut of a [1024, 2048] matrix at column offset off, read at (k, q): the matrix at
    (q, off + k). -/
theorem transpose_slice_apply {α : Type} (off : ℕ) (W : S1024x2048.Idx → α) (hs : S1024x2048.Slices ![0, off] S1024x1024)
    (ht : S1024x1024.Transposes [1, 0] S1024x1024) (k q : Fin 1024) (c : Fin 2048) (hc : c.val = off + k.val) :
    transpose S1024x1024 [1, 0] (extractStridedSlice S1024x1024 ![0, off] W hs) ht (ix2 k q) = W (ix2 q c) := by
  refine (transpose_apply [1, 0] _ ht (ix2 k q) (ix2 q k) ?_).trans ?_
  · intro b
    match b with
    | ⟨0, _⟩ => rfl
    | ⟨1, _⟩ => rfl
  · refine extractStridedSlice_apply ![0, off] W hs (ix2 q k) (ix2 q c) ?_
    intro a
    match a with
    | ⟨0, _⟩ => show q.val = 0 + q.val; omega
    | ⟨1, _⟩ => exact hc

/-- Entry (k, 1024·g + q) of the weights gathered for x is gate g's weight (q, k). -/
theorem gatherX_apply (Wi Wf Wo Wc : FVec Ideal S1024x2048 .f32) (k : Fin 1024) (g : Fin 4) (q : Fin 1024) :
    gatherX (F := Ideal) Wi Wf Wo Wc (ix2 k (Cert.Cell.col g q)) = (Cert.Cell.pick g Wi Wf Wo Wc) (ix2 q (Cert.Cell.lo k)) := by
  refine (concat4_cols_apply _ _ _ _ _ k g q).trans ?_
  match g with
  | ⟨0, _⟩ => exact transpose_slice_apply 0 _ _ _ k q (Cert.Cell.lo k) (Nat.zero_add _).symm
  | ⟨1, _⟩ => exact transpose_slice_apply 0 _ _ _ k q (Cert.Cell.lo k) (Nat.zero_add _).symm
  | ⟨2, _⟩ => exact transpose_slice_apply 0 _ _ _ k q (Cert.Cell.lo k) (Nat.zero_add _).symm
  | ⟨3, _⟩ => exact transpose_slice_apply 0 _ _ _ k q (Cert.Cell.lo k) (Nat.zero_add _).symm

/-- Entry (k, 1024·g + q) of the weights gathered for h is gate g's weight (q, 1024 + k). -/
theorem gatherH_apply (Wi Wf Wo Wc : FVec Ideal S1024x2048 .f32) (k : Fin 1024) (g : Fin 4) (q : Fin 1024) :
    gatherH (F := Ideal) Wi Wf Wo Wc (ix2 k (Cert.Cell.col g q)) = (Cert.Cell.pick g Wi Wf Wo Wc) (ix2 q (Cert.Cell.hi k)) := by
  refine (concat4_cols_apply _ _ _ _ _ k g q).trans ?_
  match g with
  | ⟨0, _⟩ => exact transpose_slice_apply 1024 _ _ _ k q (Cert.Cell.hi k) rfl
  | ⟨1, _⟩ => exact transpose_slice_apply 1024 _ _ _ k q (Cert.Cell.hi k) rfl
  | ⟨2, _⟩ => exact transpose_slice_apply 1024 _ _ _ k q (Cert.Cell.hi k) rfl
  | ⟨3, _⟩ => exact transpose_slice_apply 1024 _ _ _ k q (Cert.Cell.hi k) rfl

/-- Four vectors of length 1024 laid end to end, read at 1024·g + q: vector g at q. -/
theorem concat4_vec_apply {α : Type} (b0 b1 b2 b3 : S1024.Idx → α)
    (h : Shape.Concatenates [S1024, S1024, S1024, S1024] S4096 0) (g : Fin 4) (q : Fin 1024) :
    concatenate S4096 0 [⟨S1024, b0⟩, ⟨S1024, b1⟩, ⟨S1024, b2⟩, ⟨S1024, b3⟩] h
        (ix1 (Cert.Cell.col g q)) = (Cert.Cell.pick g b0 b1 b2 b3) (ix1 q) := by
  have hall : ∀ y ∈ ([⟨S1024, b0⟩, ⟨S1024, b1⟩, ⟨S1024, b2⟩, ⟨S1024, b3⟩] : List ((s : Shape) × (s.Idx → α))),
      y.1 = S1024 := by
    intro y hy
    simp only [List.mem_cons, List.mem_nil_iff, or_false] at hy
    rcases hy with rfl | rfl | rfl | rfl <;> rfl
  have hi : ∀ b : Fin S1024.rank, b.cast (rfl : S1024.rank = S4096.rank) ≠ (0 : Fin S4096.rank) →
      ((ix1 q : S1024.Idx) b).val = ((ix1 (Cert.Cell.col g q) : S4096.Idx) (b.cast rfl)).val := by
    intro b hb
    match b with
    | ⟨0, _⟩ => exact absurd rfl hb
  match g with
  | ⟨0, _⟩ =>
    exact UniformConcat.concatenate_uniform_apply (t := S4096) (s₁ := S1024) 0
      [⟨S1024, b0⟩, ⟨S1024, b1⟩, ⟨S1024, b2⟩, ⟨S1024, b3⟩] h rfl 1024 rfl hall _ 0 (by show 0 < 4; omega) b0 rfl
      (ix1 q) hi rfl
  | ⟨1, _⟩ =>
    exact UniformConcat.concatenate_uniform_apply (t := S4096) (s₁ := S1024) 0
      [⟨S1024, b0⟩, ⟨S1024, b1⟩, ⟨S1024, b2⟩, ⟨S1024, b3⟩] h rfl 1024 rfl hall _ 1 (by show 1 < 4; omega) b1 rfl
      (ix1 q) hi rfl
  | ⟨2, _⟩ =>
    exact UniformConcat.concatenate_uniform_apply (t := S4096) (s₁ := S1024) 0
      [⟨S1024, b0⟩, ⟨S1024, b1⟩, ⟨S1024, b2⟩, ⟨S1024, b3⟩] h rfl 1024 rfl hall _ 2 (by show 2 < 4; omega) b2 rfl
      (ix1 q) hi rfl
  | ⟨3, _⟩ =>
    exact UniformConcat.concatenate_uniform_apply (t := S4096) (s₁ := S1024) 0
      [⟨S1024, b0⟩, ⟨S1024, b1⟩, ⟨S1024, b2⟩, ⟨S1024, b3⟩] h rfl 1024 rfl hall _ 3 (by show 3 < 4; omega) b3 rfl
      (ix1 q) hi rfl

/-- Entry (0, 1024·g + q) of the gathered biases is gate g's bias q. -/
theorem gatherB_apply (bi bf bo bc : FVec Ideal S1024 .f32) (g : Fin 4) (q : Fin 1024) :
    gatherB (F := Ideal) bi bf bo bc (ix2 0 (Cert.Cell.col g q)) = (Cert.Cell.pick g bi bf bo bc) (ix1 q) := by
  refine (shapeCast_a_1a_apply _ _ 0 (Cert.Cell.col g q)).trans ?_
  exact concat4_vec_apply bi bf bo bc _ g q

end Cert.KernelIdeal.GatherValue

end
-- ==== Proof.CellBlock.lean ====
/-
  The cell on a block of rows is the cell on the whole arrays at those rows.

  If a block's rows of x, h and c are rows `R` of the arrays, and column `1024·g + q` of the gathered weights is
  row `q` of gate `g`'s weight matrix (its first 1024 columns for the x half, its last 1024 for the h half), and
  that column of the gathered biases is gate `g`'s bias at `q`, then every gate's pre-activation, the new cell
  state and the new hidden state read off the block at (p, q) are those of the arrays at (R, q): the two sides are
  the same sums of the same products.
-/
import proofs.«139048_j88639535055293_2_alg».proof.Proof.Cell

noncomputable section

open scoped BigOperators

namespace Cert.Cell

open Idealize.ShloMosaic Idealize.ShloMosaic.ValueIdx

/-- One gate: the block's pre-activation is the arrays'. -/
theorem bgate_eq (x0 x1 : FVec Ideal SX .f32) (w3 w4 : FVec Ideal SG .bf16) (b5 : FVec Ideal Sr .f32)
    (x h : FVec Ideal SB .f32) (W : FVec Ideal SW .f32) (b : FVec Ideal Sb .f32) (g : Fin 4) (R : Fin 8192) (p : Fin 256) (q : Fin 1024)
    (h0 : ∀ k : Fin 1024, x0 (ix2 p k) = x (ix2 R k)) (h1 : ∀ k : Fin 1024, x1 (ix2 p k) = h (ix2 R k))
    (h3 : ∀ k : Fin 1024, (w3 (ix2 k (col g q)) : EReal) = W (ix2 q (lo k)))
    (h4 : ∀ k : Fin 1024, (w4 (ix2 k (col g q)) : EReal) = W (ix2 q (hi k)))
    (h5 : (b5 (ix2 0 (col g q)) : EReal) = b (ix1 q)) :
    bgate x0 x1 w3 w4 b5 g p q = gate x h W b R q := by
  unfold bgate gate
  rw [h5]
  refine congrArg (· + b (ix1 q)) ?_
  refine congrArg₂ (· + ·) ?_ ?_
  · exact Finset.sum_congr rfl fun k _ => by rw [h0 k, h3 k]
  · exact Finset.sum_congr rfl fun k _ => by rw [h1 k, h4 k]

/-- The new cell state and the new hidden state read off the block are the arrays'. -/
theorem block_cell (x0 x1 x2 : FVec Ideal SX .f32) (w3 w4 : FVec Ideal SG .bf16) (b5 : FVec Ideal Sr .f32)
    (x h c : FVec Ideal SB .f32) (Wi : FVec Ideal SW .f32) (bi : FVec Ideal Sb .f32) (Wf : FVec Ideal SW .f32) (bf : FVec Ideal Sb .f32)
    (Wo : FVec Ideal SW .f32) (bo : FVec Ideal Sb .f32) (Wc : FVec Ideal SW .f32) (bc : FVec Ideal Sb .f32)
    (R : Fin 8192) (p : Fin 256) (q : Fin 1024)
    (h0 : ∀ k : Fin 1024, x0 (ix2 p k) = x (ix2 R k)) (h1 : ∀ k : Fin 1024, x1 (ix2 p k) = h (ix2 R k))
    (h2 : x2 (ix2 p q) = c (ix2 R q))
    (h3 : ∀ (g : Fin 4) (k : Fin 1024), (w3 (ix2 k (col g q)) : EReal) = pick g Wi Wf Wo Wc (ix2 q (lo k)))
    (h4 : ∀ (g : Fin 4) (k : Fin 1024), (w4 (ix2 k (col g q)) : EReal) = pick g Wi Wf Wo Wc (ix2 q (hi k)))
    (h5 : ∀ g : Fin 4, (b5 (ix2 0 (col g q)) : EReal) = pick g bi bf bo bc (ix1 q)) :
    bcAt x0 x1 x2 w3 w4 b5 p q = cAt x h c Wi bi Wf bf Wo bo Wc bc R q
      ∧ bhAt x0 x1 x2 w3 w4 b5 p q = hAt x h c Wi bi Wf bf Wo bo Wc bc R q := by
  have g0 : bgate x0 x1 w3 w4 b5 0 p q = gate x h Wi bi R q := bgate_eq x0 x1 w3 w4 b5 x h Wi bi 0 R p q h0 h1 (h3 0) (h4 0) (h5 0)
  have g1 : bgate x0 x1 w3 w4 b5 1 p q = gate x h Wf bf R q := bgate_eq x0 x1 w3 w4 b5 x h Wf bf 1 R p q h0 h1 (h3 1) (h4 1) (h5 1)
  have g2 : bgate x0 x1 w3 w4 b5 2 p q = gate x h Wo bo R q := bgate_eq x0 x1 w3 w4 b5 x h Wo bo 2 R p q h0 h1 (h3 2) (h4 2) (h5 2)
  have g3 : bgate x0 x1 w3 w4 b5 3 p q = gate x h Wc bc R q := bgate_eq x0 x1 w3 w4 b5 x h Wc bc 3 R p q h0 h1 (h3 3) (h4 3) (h5 3)
  have hc : bcAt x0 x1 x2 w3 w4 b5 p q = cAt x h c Wi bi Wf bf Wo bo Wc bc R q := by
    unfold bcAt cAt
    rw [g0, g1, g3, h2]
  refine ⟨hc, ?_⟩
  unfold bhAt hAt
  rw [g2, hc]

end Cert.Cell

end
-- ==== Proof.KernelIdealValue.lean ====
/-
  What the cell kernel's two result arrays hold after the run, as functions of the argument arrays.

  Each grid point `t` writes back, for each result, a block of 256 rows: the kernel body's arithmetic of the blocks
  it was handed. Those blocks are rows `256·t …` of x, h and c, and the whole of the gathered weights and biases the
  host built, which read at a column `1024·g + q` are gate `g`'s own weights and bias at unit `q`. So the block
  written back is block `t` of the new hidden (or cell) state of the argument arrays; the 32 blocks cover every row,
  hence each result array IS that state.
-/
import proofs.«139048_j88639535055293_2_alg».proof.Proof.KernelIdealFrame
import proofs.«139048_j88639535055293_2_alg».proof.Proof.KernelHost
import proofs.«139048_j88639535055293_2_alg».proof.Proof.KernelCell
import proofs.«139048_j88639535055293_2_alg».proof.Proof.KernelGather
import proofs.«139048_j88639535055293_2_alg».proof.Proof.CellBlock
import Idealize.ShloMosaic.Lib.Pipeline.Value
import Idealize.ShloMosaic.Lib.StableHlo.Run

noncomputable section

namespace Cert.KernelIdeal.HandValue

open Cert.KernelIdeal Cert.KernelIdeal.Gen Cert.KernelIdeal.Hand Idealize.ShloMosaic Idealize.ShloMosaic.TcCoe Idealize.ShloMosaic.Tactic
open Idealize.SL Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The new hidden state and the new cell state of a core's argument arrays. -/
def hOut (c : Dev nD) : FVec Ideal S8192x1024 .f32 := Cert.Cell.hNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
def cOut (c : Dev nD) : FVec Ideal S8192x1024 .f32 := Cert.Cell.cNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem hz : (![0, 0] : Fin 2 → Nat) = fun _ => 0 := funext fun a => by fin_cases a <;> rfl

/-! ## What the host built before the launch -/

theorem V_main_v12 (c : Dev nD) : V m c main_v12 = gatherX (F := Ideal) (m ((c : Thread nD τ).loc main_arg3)) (m ((c : Thread nD τ).loc main_arg5)) (m ((c : Thread nD τ).loc main_arg7)) (m ((c : Thread nD τ).loc main_arg9)) := by
  dsimp only [V, hostOps0]
  after_results
  rfl

theorem V_main_v21 (c : Dev nD) : V m c main_v21 = gatherH (F := Ideal) (m ((c : Thread nD τ).loc main_arg3)) (m ((c : Thread nD τ).loc main_arg5)) (m ((c : Thread nD τ).loc main_arg7)) (m ((c : Thread nD τ).loc main_arg9)) := by
  dsimp only [V, hostOps0]
  after_results
  rfl

theorem V_main_v23 (c : Dev nD) : V m c main_v23 = gatherB (F := Ideal) (m ((c : Thread nD τ).loc main_arg4)) (m ((c : Thread nD τ).loc main_arg6)) (m ((c : Thread nD τ).loc main_arg8)) (m ((c : Thread nD τ).loc main_arg10)) := by
  dsimp only [V, hostOps0]
  after_results
  rfl

/-! ## The windows' blocks at a grid point -/

/-- The printed index maps over the grid: the row-blocked windows (x, h, c and the two results) are at block `t` of
    the rows, the gathered weights and biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of block `t` of argument 0 is row `256·t + p` of the array. -/
theorem blk0 (c : Dev nD) (t : Fin cfg0.N) (p : Fin 256) (k : Fin 1024) (R : Fin 8192) (hR : R.val = 256 * t.val + p.val) :
    iblk m c 0 t (ix2 p k) = m ((c : Thread nD τ).loc main_arg0) (ix2 R k) := by
  obtain ⟨a0, a1, b0, b1, c0, c1, d0, d1, e0, e1, f0, f1, g0, g1, h0, h1⟩ := idx_facts t
  show V m c main_arg0 (((cfg0.win 0).blk t).view.emb (ix2 p k)) = _
  rw [V_main_arg0]
  refine congrArg _ ?_
  funext a; apply Fin.ext
  match a with
  | ⟨0, _⟩ => show win0_0.index t (0 : Fin 2) * 256 + 1 * p.val = R.val; omega
  | ⟨1, _⟩ => show win0_0.index t (1 : Fin 2) * 1024 + 1 * k.val = k.val; omega

/-- Row `p` of block `t` of argument 1 is row `256·t + p` of the array. -/
theorem blk1 (c : Dev nD) (t : Fin cfg0.N) (p : Fin 256) (k : Fin 1024) (R : Fin 8192) (hR : R.val = 256 * t.val + p.val) :
    iblk m c 1 t (ix2 p k) = m ((c : Thread nD τ).loc main_arg1) (ix2 R k) := by
  obtain ⟨a0, a1, b0, b1, c0, c1, d0, d1, e0, e1, f0, f1, g0, g1, h0, h1⟩ := idx_facts t
  show V m c main_arg1 (((cfg0.win 1).blk t).view.emb (ix2 p k)) = _
  rw [V_main_arg1]
  refine congrArg _ ?_
  funext a; apply Fin.ext
  match a with
  | ⟨0, _⟩ => show win0_1.index t (0 : Fin 2) * 256 + 1 * p.val = R.val; omega
  | ⟨1, _⟩ => show win0_1.index t (1 : Fin 2) * 1024 + 1 * k.val = k.val; omega

/-- Row `p` of block `t` of argument 2 is row `256·t + p` of the array. -/
theorem blk2 (c : Dev nD) (t : Fin cfg0.N) (p : Fin 256) (k : Fin 1024) (R : Fin 8192) (hR : R.val = 256 * t.val + p.val) :
    iblk m c 2 t (ix2 p k) = m ((c : Thread nD τ).loc main_arg2) (ix2 R k) := by
  obtain ⟨a0, a1, b0, b1, c0, c1, d0, d1, e0, e1, f0, f1, g0, g1, h0, h1⟩ := idx_facts t
  show V m c main_arg2 (((cfg0.win 2).blk t).view.emb (ix2 p k)) = _
  rw [V_main_arg2]
  refine congrArg _ ?_
  funext a; apply Fin.ext
  match a with
  | ⟨0, _⟩ => show win0_2.index t (0 : Fin 2) * 256 + 1 * p.val = R.val; omega
  | ⟨1, _⟩ => show win0_2.index t (1 : Fin 2) * 1024 + 1 * k.val = k.val; omega

/-- The gathered x-weights' one block is the whole matrix. -/
theorem blk3 (c : Dev nD) (t : Fin cfg0.N) (k : Fin 1024) (j : Fin 4096) :
    iblk m c 3 t (ix2 k j) = gatherX (F := Ideal) (m ((c : Thread nD τ).loc main_arg3)) (m ((c : Thread nD τ).loc main_arg5)) (m ((c : Thread nD τ).loc main_arg7)) (m ((c : Thread nD τ).loc main_arg9)) (ix2 k j) := by
  obtain ⟨a0, a1, b0, b1, c0, c1, d0, d1, e0, e1, f0, f1, g0, g1, h0, h1⟩ := idx_facts t
  show V m c main_v12 (((cfg0.win 3).blk t).view.emb (ix2 k j)) = _
  rw [V_main_v12]
  refine congrArg _ ?_
  funext a; apply Fin.ext
  match a with
  | ⟨0, _⟩ => show win0_3.index t (0 : Fin 2) * 1024 + 1 * k.val = k.val; omega
  | ⟨1, _⟩ => show win0_3.index t (1 : Fin 2) * 4096 + 1 * j.val = j.val; omega

/-- The gathered h-weights' one block is the whole matrix. -/
theorem blk4 (c : Dev nD) (t : Fin cfg0.N) (k : Fin 1024) (j : Fin 4096) :
    iblk m c 4 t (ix2 k j) = gatherH (F := Ideal) (m ((c : Thread nD τ).loc main_arg3)) (m ((c : Thread nD τ).loc main_arg5)) (m ((c : Thread nD τ).loc main_arg7)) (m ((c : Thread nD τ).loc main_arg9)) (ix2 k j) := by
  obtain ⟨a0, a1, b0, b1, c0, c1, d0, d1, e0, e1, f0, f1, g0, g1, h0, h1⟩ := idx_facts t
  show V m c main_v21 (((cfg0.win 4).blk t).view.emb (ix2 k j)) = _
  rw [V_main_v21]
  refine congrArg _ ?_
  funext a; apply Fin.ext
  match a with
  | ⟨0, _⟩ => show win0_4.index t (0 : Fin 2) * 1024 + 1 * k.val = k.val; omega
  | ⟨1, _⟩ => show win0_4.index t (1 : Fin 2) * 4096 + 1 * j.val = j.val; omega

/-- The gathered biases' one block is the whole row. -/
theorem blk5 (c : Dev nD) (t : Fin cfg0.N) (j : Fin 4096) :
    iblk m c 5 t (ix2 0 j) = gatherB (F := Ideal) (m ((c : Thread nD τ).loc main_arg4)) (m ((c : Thread nD τ).loc main_arg6)) (m ((c : Thread nD τ).loc main_arg8)) (m ((c : Thread nD τ).loc main_arg10)) (ix2 0 j) := by
  obtain ⟨a0, a1, b0, b1, c0, c1, d0, d1, e0, e1, f0, f1, g0, g1, h0, h1⟩ := idx_facts t
  show V m c main_v23 (((cfg0.win 5).blk t).view.emb (ix2 0 j)) = _
  rw [V_main_v23]
  refine congrArg _ ?_
  funext a; apply Fin.ext
  match a with
  | ⟨0, _⟩ => show win0_5.index t (0 : Fin 2) * 1 + 1 * 0 = 0; omega
  | ⟨1, _⟩ => show win0_5.index t (1 : Fin 2) * 4096 + 1 * j.val = j.val; omega

/-- The cell read off point `t`'s blocks at (p, q) is the cell of the argument arrays at row `256·t + p`, unit `q`. -/
theorem block_eq (c : Dev nD) (t : Fin cfg0.N) (p : Fin 256) (q : Fin 1024) (R : Fin 8192) (hR : R.val = 256 * t.val + p.val) :
    Cert.Cell.bcAt (iblk m c 0 t) (iblk m c 1 t) (iblk m c 2 t) (iblk m c 3 t) (iblk m c 4 t) (iblk m c 5 t) p q = cOut m c (ix2 R q)
      ∧ Cert.Cell.bhAt (iblk m c 0 t) (iblk m c 1 t) (iblk m c 2 t) (iblk m c 3 t) (iblk m c 4 t) (iblk m c 5 t) p q = hOut m c (ix2 R q) :=
  Cert.Cell.block_cell (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R p q
    (fun k => blk0 m c t p k R hR) (fun k => blk1 m c t p k R hR) (blk2 m c t p q R hR)
    (fun g k => (blk3 m c t k (Cert.Cell.col g q)).trans (GatherValue.gatherX_apply _ _ _ _ k g q))
    (fun g k => (blk4 m c t k (Cert.Cell.col g q)).trans (GatherValue.gatherH_apply _ _ _ _ k g q))
    (fun g => (blk5 m c t (Cert.Cell.col g q)).trans (GatherValue.gatherB_apply _ _ _ _ g q))

/-! ## The new hidden state (output window 6) -/

/-- What grid point `t` writes back is block `t` of the hidden state of the argument arrays. -/
theorem flushed6_eq (c : Dev nD) (t : Fin cfg0.N) :
    (dats m 0 c).flushed 6 t = ((cfg0.win 6).blk t).view.read (Elt Ideal) (hOut m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  have ht : t.val < 32 := lt_of_lt_of_eq t.isLt (N_0 : cfg0.N = 32)
  obtain ⟨R, hR⟩ : ∃ R : Fin 8192, R.val = 256 * t.val + p.val := ⟨⟨256 * t.val + p.val, by have := p.isLt; omega⟩, rfl⟩
  obtain ⟨a0, a1, b0, b1, c0, c1, d0, d1, e0, e1, f0, f1, g0, g1, h0, h1⟩ := idx_facts t
  have hemb : ((cfg0.win 6).blk t).view.emb (ix2 p q) = ix2 R q := by
    funext a; apply Fin.ext
    match a with
    | ⟨0, _⟩ => show win0_6.index t (0 : Fin 2) * 256 + 1 * p.val = R.val; omega
    | ⟨1, _⟩ => show win0_6.index t (1 : Fin 2) * 1024 + 1 * q.val = q.val; omega
  show k0_pay3 (iblk m c 0 t) (iblk m c 1 t) (iblk m c 3 t) (iblk m c 4 t) (iblk m c 5 t) (iblk m c 2 t) (ix2 p q) = hOut m c (((cfg0.win 6).blk t).view.emb (ix2 p q))
  rw [hemb]
  refine (CellValue.pay3_apply (iblk m c 0 t) (iblk m c 1 t) (iblk m c 2 t) (iblk m c 3 t) (iblk m c 4 t) (iblk m c 5 t) p q).trans ?_
  exact (block_eq m c t p q R hR).2

/-- An index of the array is in point `t`'s block iff each coordinate is in the block's range on its axis. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v24_0).slice (win0_6.rect t)).set ↔ _
  rw [View.set_slice_whole, Rect.mem_set_unit]
  exact Iff.rfl

/-- Every entry is written back by some grid point: row `r` by point `r / 256`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 256 < cfg0.N := by rw [show cfg0.N = 32 from N_0]; omega
  obtain ⟨t, ht⟩ : ∃ t : Fin cfg0.N, t.val = (i 0).val / 256 := ⟨⟨(i 0).val / 256, hN⟩, rfl⟩
  obtain ⟨a0, a1, b0, b1, c0, c1, d0, d1, e0, e1, f0, f1, g0, g1, h0, h1⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The array after the run is the hidden state of the argument arrays. -/
theorem final6 (c : Dev nD) : (dats m 0 c).arrAt 6 cfg0.N = hOut m c :=
  (dats m 0 c).arrAt_eq_of_cover 6 (hOut m c) (fun t _ => flushed6_eq m c t) cover6

/-! ## The new cell state (output window 7) -/

/-- What grid point `t` writes back is block `t` of the cell state of the argument arrays. -/
theorem flushed7_eq (c : Dev nD) (t : Fin cfg0.N) :
    (dats m 0 c).flushed 7 t = ((cfg0.win 7).blk t).view.read (Elt Ideal) (cOut m c) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  have ht : t.val < 32 := lt_of_lt_of_eq t.isLt (N_0 : cfg0.N = 32)
  obtain ⟨R, hR⟩ : ∃ R : Fin 8192, R.val = 256 * t.val + p.val := ⟨⟨256 * t.val + p.val, by have := p.isLt; omega⟩, rfl⟩
  obtain ⟨a0, a1, b0, b1, c0, c1, d0, d1, e0, e1, f0, f1, g0, g1, h0, h1⟩ := idx_facts t
  have hemb : ((cfg0.win 7).blk t).view.emb (ix2 p q) = ix2 R q := by
    funext a; apply Fin.ext
    match a with
    | ⟨0, _⟩ => show win0_7.index t (0 : Fin 2) * 256 + 1 * p.val = R.val; omega
    | ⟨1, _⟩ => show win0_7.index t (1 : Fin 2) * 1024 + 1 * q.val = q.val; omega
  show k0_pay2 (iblk m c 0 t) (iblk m c 1 t) (iblk m c 3 t) (iblk m c 4 t) (iblk m c 5 t) (iblk m c 2 t) (ix2 p q) = cOut m c (((cfg0.win 7).blk t).view.emb (ix2 p q))
  rw [hemb]
  refine (CellValue.pay2_apply (iblk m c 0 t) (iblk m c 1 t) (iblk m c 2 t) (iblk m c 3 t) (iblk m c 4 t) (iblk m c 5 t) p q).trans ?_
  exact (block_eq m c t p q R hR).1

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v24_1).slice (win0_7.rect t)).set ↔ _
  rw [View.set_slice_whole, Rect.mem_set_unit]
  exact Iff.rfl

/-- Every entry is written back by some grid point: row `r` by point `r / 256`. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 256 < cfg0.N := by rw [show cfg0.N = 32 from N_0]; omega
  obtain ⟨t, ht⟩ : ∃ t : Fin cfg0.N, t.val = (i 0).val / 256 := ⟨⟨(i 0).val / 256, hN⟩, rfl⟩
  obtain ⟨a0, a1, b0, b1, c0, c1, d0, d1, e0, e1, f0, f1, g0, g1, h0, h1⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The array after the run is the cell state of the argument arrays. -/
theorem final7 (c : Dev nD) : (dats m 0 c).arrAt 7 cfg0.N = cOut m c :=
  (dats m 0 c).arrAt_eq_of_cover 7 (cOut m c) (fun t _ => flushed7_eq m c t) cover7

/-! ## The run, read -/

/-- Every weakly fair execution terminates with the two results at the new hidden and cell states of the argument
    arrays, and the arguments unchanged. -/
theorem run : θ_run defs (onTc (τ := τ) (main (F := Ideal))) ⟨m, fun _ => 0, ρ⟩ fun r => ∀ c : Dev nD,
      r.2.mem ((c : Thread nD τ).loc main_v24_0) = hOut m c
      ∧ r.2.mem ((c : Thread nD τ).loc main_v24_1) = cOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.HandValue

end
-- ==== Proof.RefCell.lean ====
/-
  The reference program of the LSTM cell, read entry by entry.

  The program joins x and h side by side into rows of 2048 entries, stacks the four gates' weight matrices into one
  [4096, 2048] matrix and the four biases into one vector of 4096 entries, and computes all four pre-activations at
  once: row r of [x | h] against row 1024·g + j of the stacked weights, plus entry 1024·g + j of the stacked biases, is
  gate g's pre-activation at row r, unit j. Splitting the sum over the 2048 joined columns into the 1024 that meet x
  and the 1024 that meet h gives the two sums of the cell's definition. The logistic function is spelled
  1 / (1 + exp (−p)), which is the extended reals' logistic function by definition.
-/
import proofs.«139048_j88639535055293_2_alg».proof.Proof.Gen.ReferenceIdeal.Read
import proofs.«139048_j88639535055293_2_alg».proof.Proof.Cell
import proofs.«139048_j88639535055293_2_alg».proof.Proof.LibUniformConcat
import Idealize.ShloMosaic.Lib.IdealHost

noncomputable section

open scoped BigOperators

namespace Cert.ReferenceIdeal.RefCell

open Cert.ReferenceIdeal Cert.ReferenceIdeal.Gen Cert.ReferenceIdeal.Read Idealize.ShloMosaic Idealize.ShloMosaic.ValueIdx Cert.Cell

/-! ## The three joined arrays at an index -/

/-- The joined row [x | h] at one of its first 1024 columns is x. -/
theorem joined_lo (x0 x1 : FVec Ideal S8192x1024 .f32) (r : Fin 8192) (k : Fin 1024) :
    val_main_v0 (F := Ideal) x0 x1 (ix2 r (lo k)) = x0 (ix2 r k) := by
  unfold val_main_v0
  exact concatenate_pair_apply_left (1 : Fin 2) x0 x1 _ (ix2 r (lo k)) rfl (ix2 r k)
    (fun b => match b with | ⟨0, _⟩ => rfl | ⟨1, _⟩ => rfl)

/-- The joined row [x | h] at one of its last 1024 columns is h. -/
theorem joined_hi (x0 x1 : FVec Ideal S8192x1024 .f32) (r : Fin 8192) (k : Fin 1024) :
    val_main_v0 (F := Ideal) x0 x1 (ix2 r (hi k)) = x1 (ix2 r k) := by
  unfold val_main_v0
  exact concatenate_pair_apply_right (1 : Fin 2) x0 x1 _ (ix2 r (hi k)) rfl rfl (ix2 r k)
    (fun b hb => match b, hb with | ⟨0, _⟩, _ => rfl | ⟨1, _⟩, hb => absurd rfl hb)
    (by show k.val + 1024 = 1024 + k.val; omega)

/-- Row 1024·g + j of the four weight matrices stacked one above the other is row j of gate g's matrix. -/
theorem weights_at (x3 x5 x7 x9 : FVec Ideal S1024x2048 .f32) (g : Fin 4) (j : Fin 1024) (c : Fin 4096)
    (hc : c.val = 1024 * g.val + j.val) (m : Fin 2048) :
    val_main_v1 (F := Ideal) x3 x5 x7 x9 (ix2 c m) = pick g x3 x5 x7 x9 (ix2 j m) := by
  unfold val_main_v1
  refine UniformConcat.concatenate_uniform_apply (t := S4096x2048) (s₁ := S1024x2048) (0 : Fin 2) _ _ rfl 1024 rfl
    ?_ (ix2 c m) g.val ?_ (pick g x3 x5 x7 x9) ?_ (ix2 j m) ?_ hc.symm
  · intro y hy
    simp only [List.mem_cons, List.not_mem_nil, or_false] at hy
    rcases hy with rfl | rfl | rfl | rfl <;> rfl
  · exact g.isLt
  · match g with
    | ⟨0, _⟩ => rfl
    | ⟨1, _⟩ => rfl
    | ⟨2, _⟩ => rfl
    | ⟨3, _⟩ => rfl
  · intro b hb
    match b, hb with
    | ⟨0, _⟩, hb => exact absurd rfl hb
    | ⟨1, _⟩, _ => rfl

/-- Entry 1024·g + j of the four biases laid end to end is entry j of gate g's bias. -/
theorem bias_at (x4 x6 x8 x10 : FVec Ideal S1024 .f32) (g : Fin 4) (j : Fin 1024) (c : Fin 4096)
    (hc : c.val = 1024 * g.val + j.val) :
    val_main_v2 (F := Ideal) x4 x6 x8 x10 (ix1 c) = pick g x4 x6 x8 x10 (ix1 j) := by
  unfold val_main_v2
  refine UniformConcat.concatenate_uniform_apply (t := S4096) (s₁ := S1024) (0 : Fin 1) _ _ rfl 1024 rfl
    ?_ (ix1 c) g.val ?_ (pick g x4 x6 x8 x10) ?_ (ix1 j) ?_ hc.symm
  · intro y hy
    simp only [List.mem_cons, List.not_mem_nil, or_false] at hy
    rcases hy with rfl | rfl | rfl | rfl <;> rfl
  · exact g.isLt
  · match g with
    | ⟨0, _⟩ => rfl
    | ⟨1, _⟩ => rfl
    | ⟨2, _⟩ => rfl
    | ⟨3, _⟩ => rfl
  · intro b hb
    match b, hb with
    | ⟨0, _⟩, hb => exact absurd rfl hb

/-! ## The four pre-activations at once -/

/-- Column 1024·g + j of the sum "joined rows times stacked weights, plus stacked biases" at row r is gate g's
    pre-activation at row r, unit j: the sum over the 2048 joined columns splits into the x-half and the h-half. -/
theorem gates_at (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (g : Fin 4) (r : Fin 8192) (j : Fin 1024) (c : Fin 4096)
    (hc : c.val = 1024 * g.val + j.val) :
    val_main_v7 (F := Ideal) x0 x1 x3 x4 x5 x6 x7 x8 x9 x10 (ix2 r c)
      = gate x0 x1 (pick g x3 x5 x7 x9) (pick g x4 x6 x8 x10) r j := by
  rw [val_main_v7_apply, val_main_v4_apply, val_main_v6_apply, val_main_v5_apply, Ideal.addf_def]
  unfold gate
  have eb : idx_main_v5 (idx_main_v6 (ix2 r c)) = ix1 c := funext fun a => match a with | ⟨0, _⟩ => rfl
  rw [eb, bias_at x4 x6 x8 x10 g j c hc, sum_halves]
  refine congrArg (· + pick g x4 x6 x8 x10 (ix1 j)) ?_
  refine congrArg₂ (· + ·) (Finset.sum_congr rfl fun k _ => ?_) (Finset.sum_congr rfl fun k _ => ?_)
  · have e1 : lidx_main_v4 (ix2 r c) (lo k) = ix2 r (lo k) := funext fun a => match a with | ⟨0, _⟩ => rfl | ⟨1, _⟩ => rfl
    have e2 : idx_main_v3 (ridx_main_v4 (ix2 r c) (lo k)) = ix2 c (lo k) :=
      funext fun a => match a with | ⟨0, _⟩ => rfl | ⟨1, _⟩ => rfl
    rw [val_main_v3_apply, e1, e2, joined_lo, weights_at x3 x5 x7 x9 g j c hc]
  · have e1 : lidx_main_v4 (ix2 r c) (hi k) = ix2 r (hi k) := funext fun a => match a with | ⟨0, _⟩ => rfl | ⟨1, _⟩ => rfl
    have e2 : idx_main_v3 (ridx_main_v4 (ix2 r c) (hi k)) = ix2 c (hi k) :=
      funext fun a => match a with | ⟨0, _⟩ => rfl | ⟨1, _⟩ => rfl
    rw [val_main_v3_apply, e1, e2, joined_hi, weights_at x3 x5 x7 x9 g j c hc]

/-! ## The four gates -/

/-- The slice of columns 0 … 1023 at (r, j) is the input gate's pre-activation. -/
theorem pre_i (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v8 (F := Ideal) x0 x1 x3 x4 x5 x6 x7 x8 x9 x10 (ix2 r j) = gate x0 x1 x3 x4 r j := by
  have e : idx_main_v8 (ix2 r j) = ix2 r (⟨j.val, by omega⟩ : Fin 4096) :=
    funext fun a => match a with | ⟨0, _⟩ => rfl | ⟨1, _⟩ => rfl
  rw [val_main_v8_apply, e]
  exact gates_at x0 x1 x3 x4 x5 x6 x7 x8 x9 x10 0 r j _ (by show j.val = 1024 * 0 + j.val; omega)

/-- The slice of columns 1024 … 2047 at (r, j) is the forget gate's pre-activation. -/
theorem pre_f (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v9 (F := Ideal) x0 x1 x3 x4 x5 x6 x7 x8 x9 x10 (ix2 r j) = gate x0 x1 x5 x6 r j := by
  have e : idx_main_v9 (ix2 r j) = ix2 r (⟨1024 + j.val, by omega⟩ : Fin 4096) :=
    funext fun a => match a with | ⟨0, _⟩ => rfl | ⟨1, _⟩ => rfl
  rw [val_main_v9_apply, e]
  exact gates_at x0 x1 x3 x4 x5 x6 x7 x8 x9 x10 1 r j _ (by show 1024 + j.val = 1024 * 1 + j.val; omega)

/-- The slice of columns 2048 … 3071 at (r, j) is the output gate's pre-activation. -/
theorem pre_o (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v10 (F := Ideal) x0 x1 x3 x4 x5 x6 x7 x8 x9 x10 (ix2 r j) = gate x0 x1 x7 x8 r j := by
  have e : idx_main_v10 (ix2 r j) = ix2 r (⟨2048 + j.val, by omega⟩ : Fin 4096) :=
    funext fun a => match a with | ⟨0, _⟩ => rfl | ⟨1, _⟩ => rfl
  rw [val_main_v10_apply, e]
  exact gates_at x0 x1 x3 x4 x5 x6 x7 x8 x9 x10 2 r j _ (by show 2048 + j.val = 1024 * 2 + j.val; omega)

/-- The slice of columns 3072 … 4095 at (r, j) is the candidate's pre-activation. -/
theorem pre_g (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v11 (F := Ideal) x0 x1 x3 x4 x5 x6 x7 x8 x9 x10 (ix2 r j) = gate x0 x1 x9 x10 r j := by
  have e : idx_main_v11 (ix2 r j) = ix2 r (⟨3072 + j.val, by omega⟩ : Fin 4096) :=
    funext fun a => match a with | ⟨0, _⟩ => rfl | ⟨1, _⟩ => rfl
  rw [val_main_v11_apply, e]
  exact gates_at x0 x1 x3 x4 x5 x6 x7 x8 x9 x10 3 r j _ (by show 3072 + j.val = 1024 * 3 + j.val; omega)

/-- One broadcast to every entry, then 1 / (1 + exp (−p)), is the logistic function of p. -/
theorem one_div_one_add_exp_neg (p : EReal) :
    Ideal.div (Ideal.ofBits .f32 0x3F800000#32) (Ideal.ofBits .f32 0x3F800000#32 + Ideal.exp (-p)) = Ideal.logistic p := by
  rw [Ideal.ofBits_one_f32]; rfl

/-- The input gate. -/
theorem sig_i (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v17 (F := Ideal) x0 x1 x3 x4 x5 x6 x7 x8 x9 x10 (ix2 r j) = Ideal.logistic (gate x0 x1 x3 x4 r j) := by
  rw [val_main_v17_apply, val_main_v16_apply, val_main_cst_0_apply, val_main_v15_apply, val_main_v14_apply,
    val_main_cst_apply, val_main_v13_apply, val_main_v12_apply, pre_i]
  exact one_div_one_add_exp_neg _

/-- The forget gate. -/
theorem sig_f (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v23 (F := Ideal) x0 x1 x3 x4 x5 x6 x7 x8 x9 x10 (ix2 r j) = Ideal.logistic (gate x0 x1 x5 x6 r j) := by
  rw [val_main_v23_apply, val_main_v22_apply, val_main_cst_2_apply, val_main_v21_apply, val_main_v20_apply,
    val_main_cst_1_apply, val_main_v19_apply, val_main_v18_apply, pre_f]
  exact one_div_one_add_exp_neg _

/-- The output gate. -/
theorem sig_o (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v29 (F := Ideal) x0 x1 x3 x4 x5 x6 x7 x8 x9 x10 (ix2 r j) = Ideal.logistic (gate x0 x1 x7 x8 r j) := by
  rw [val_main_v29_apply, val_main_v28_apply, val_main_cst_4_apply, val_main_v27_apply, val_main_v26_apply,
    val_main_cst_3_apply, val_main_v25_apply, val_main_v24_apply, pre_o]
  exact one_div_one_add_exp_neg _

/-- The candidate. -/
theorem tanh_g (x0 x1 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v30 (F := Ideal) x0 x1 x3 x4 x5 x6 x7 x8 x9 x10 (ix2 r j) = Ideal.tanh (gate x0 x1 x9 x10 r j) := by
  rw [val_main_v30_apply, pre_g]; rfl

/-! ## The two results -/

/-- The new cell state at (r, j). -/
theorem c_at (x0 x1 x2 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v33 (F := Ideal) x0 x1 x2 x3 x4 x5 x6 x7 x8 x9 x10 (ix2 r j) = cAt x0 x1 x2 x3 x4 x5 x6 x7 x8 x9 x10 r j := by
  rw [val_main_v33_apply, val_main_v31_apply, val_main_v32_apply, sig_f, sig_i, tanh_g]; rfl

/-- The new hidden state at (r, j). -/
theorem h_at (x0 x1 x2 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) (r : Fin 8192) (j : Fin 1024) :
    val_main_v35 (F := Ideal) x0 x1 x2 x3 x4 x5 x6 x7 x8 x9 x10 (ix2 r j) = hAt x0 x1 x2 x3 x4 x5 x6 x7 x8 x9 x10 r j := by
  rw [val_main_v35_apply, val_main_v34_apply, sig_o, c_at]; rfl

/-- The reference's second result is the cell's new cell state. -/
theorem ref_c (x0 x1 x2 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) :
    Cert.ReferenceIdeal.Read.val_main_v33 (F := Ideal) x0 x1 x2 x3 x4 x5 x6 x7 x8 x9 x10 = Cert.Cell.cNext x0 x1 x2 x3 x4 x5 x6 x7 x8 x9 x10 := by
  funext i
  obtain ⟨r, j, rfl⟩ : ∃ (r : Fin 8192) (j : Fin 1024), i = ix2 r j := ⟨i 0, i 1, eq_ix2 i⟩
  exact (c_at x0 x1 x2 x3 x4 x5 x6 x7 x8 x9 x10 r j).trans (cNext_ix2 x0 x1 x2 x3 x4 x5 x6 x7 x8 x9 x10 r j).symm

/-- The reference's first result is the cell's new hidden state. -/
theorem ref_h (x0 x1 x2 : FVec Ideal S8192x1024 .f32) (x3 : FVec Ideal S1024x2048 .f32) (x4 : FVec Ideal S1024 .f32)
    (x5 : FVec Ideal S1024x2048 .f32) (x6 : FVec Ideal S1024 .f32) (x7 : FVec Ideal S1024x2048 .f32) (x8 : FVec Ideal S1024 .f32)
    (x9 : FVec Ideal S1024x2048 .f32) (x10 : FVec Ideal S1024 .f32) :
    Cert.ReferenceIdeal.Read.val_main_v35 (F := Ideal) x0 x1 x2 x3 x4 x5 x6 x7 x8 x9 x10 = Cert.Cell.hNext x0 x1 x2 x3 x4 x5 x6 x7 x8 x9 x10 := by
  funext i
  obtain ⟨r, j, rfl⟩ : ∃ (r : Fin 8192) (j : Fin 1024), i = ix2 r j := ⟨i 0, i 1, eq_ix2 i⟩
  exact (h_at x0 x1 x2 x3 x4 x5 x6 x7 x8 x9 x10 r j).trans (hNext_ix2 x0 x1 x2 x3 x4 x5 x6 x7 x8 x9 x10 r j).symm

end Cert.ReferenceIdeal.RefCell

end
-- ==== Proof.lean ====
/-
  One step of an LSTM cell: a kernel that processes the batch in 32 blocks of 256 rows against its plain reference.

  Both programs compute, from x, h, c and four gates' weights W[1024,2048] and biases b[1024], the new cell state
  σ(pre_f)·c + σ(pre_i)·tanh(pre_g) and the new hidden state σ(pre_o)·tanh(new cell state), where a gate's
  pre-activation at row r, unit j is the weight row W(j,·) against the joined row [x(r,·) | h(r,·)], plus b(j).

  The reference joins x and h into rows of 2048 and the four weight matrices into one, and contracts once over the
  2048 columns. The kernel's program first gathers, on the host, the weights' first 1024 columns (those that meet x)
  and last 1024 columns (those that meet h) into two transposed [1024,4096] matrices, gate after gate, and the biases
  into one row; the kernel then contracts a block's rows of x with the first matrix and of h with the second and adds
  the two products and the bias row. Over the extended reals the changes of float format are the identity, the
  kernel's logistic is the reference's 1/(1 + e^(-z)), and a sum over 2048 columns is the sum over the first 1024
  plus the sum over the last 1024 — in any commutative monoid, so the finiteness of the inputs is never used. Hence
  each block the kernel writes back is that block of the reference's result, and the 32 blocks cover the rows.

  The three frames: each kernel program terminates, faults nowhere and leaves its arguments unchanged because the
  host operations write only their own results and the kernel's body only its two output buffers; the reference is a
  straight line of host operations. No operation was rewritten on the way to the idealized kernel.
-/
import proofs.«139048_j88639535055293_2_alg».proof.Defs
import proofs.«139048_j88639535055293_2_alg».proof.Proof.Gen.Kernel
import proofs.«139048_j88639535055293_2_alg».proof.Proof.Gen.Kernel.Skeleton
import proofs.«139048_j88639535055293_2_alg».proof.Proof.Gen.Kernel.Launch
import proofs.«139048_j88639535055293_2_alg».proof.Proof.Gen.Kernel.Points
import proofs.«139048_j88639535055293_2_alg».proof.Proof.Gen.KernelIdeal
import proofs.«139048_j88639535055293_2_alg».proof.Proof.Gen.KernelIdeal.Skeleton
import proofs.«139048_j88639535055293_2_alg».proof.Proof.Gen.KernelIdeal.Launch
import proofs.«139048_j88639535055293_2_alg».proof.Proof.Gen.KernelIdeal.Points
import proofs.«139048_j88639535055293_2_alg».proof.Proof.Gen.ReferenceIdeal
import proofs.«139048_j88639535055293_2_alg».proof.Proof.Gen.ReferenceIdeal.Run
import proofs.«139048_j88639535055293_2_alg».proof.Proof.Gen.ReferenceIdeal.Read
import proofs.«139048_j88639535055293_2_alg».proof.Proof.Gen.Pre_finite_inputs
import proofs.«139048_j88639535055293_2_alg».proof.Proof.KernelFrame
import proofs.«139048_j88639535055293_2_alg».proof.Proof.KernelIdealFrame
import proofs.«139048_j88639535055293_2_alg».proof.Proof.KernelIdealValue
import proofs.«139048_j88639535055293_2_alg».proof.Proof.RefCell
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten: nothing to preserve. -/
theorem preserves : Cert.preserves_Kernel_KernelIdeal := trivial

/-- Both programs end with the new hidden state and the new cell state of their (equal) arguments. -/
theorem algebraic : Cert.algebraic_KernelIdeal_ReferenceIdeal := by
  intro m ρ m' ρ' _ hagree
  refine ⟨fun c => Cert.KernelIdeal.HandValue.hOut m c, fun c => Cert.KernelIdeal.HandValue.cOut m c,
    Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v35_eq, Cert.ReferenceIdeal.RefCell.ref_h]
    unfold Cert.KernelIdeal.HandValue.hOut
    rw [e0, e1, e2, e3, e4, e5, e6, e7, e8, e9, e10]
  · obtain ⟨e0, e1, e2, e3, e4, e5, e6, e7, e8, e9, e10⟩ := hagree c
    rw [Cert.ReferenceIdeal.Read.val_main_v33_eq, Cert.ReferenceIdeal.RefCell.ref_c]
    unfold Cert.KernelIdeal.HandValue.cOut
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
